-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8192x2 : Shape := ⟨3, ![1024, 8192, 2]⟩
abbrev S_ : Shape := ⟨0, ![]⟩

class Facts : Prop where
  bcast_S_S1024x8192x2 : S_.BroadcastsInDim S1024x8192x2 (![] : Fin 0 → Fin S1024x8192x2.rank)
  reducesTo_S1024x8192x2_S_d0_1_2 : S1024x8192x2.ReducesTo [0, 1, 2] S_
  h_S_ : 0 < S_.numel

variable [Facts]

def fn {F : FTy → Type} [FloatOps F] (main_arg0 : FVec F S1024x8192x2 .f32) (main_arg1 : FVec F S1024x8192x2 .f32) : IVec S_ 1 :=
  let main_v0 : FVec F S1024x8192x2 .f32 := Host.absf main_arg0
  let main_cst : FVec F S_ .f32 := constant S_ .f32 0x7F800000#32
  let main_v1 : FVec F S1024x8192x2 .f32 := broadcastInDim S1024x8192x2 ![] bcast_S_S1024x8192x2 main_cst
  let main_v2 : IVec S1024x8192x2 1 := cmpf .olt main_v0 main_v1
  let main_c : IVec S_ 1 := constantI S_ 1 1#1
  let main_v3 : IVec S_ 1 := (fun x v => Host.reduce IntOp.andi x v reducesTo_S1024x8192x2_S_d0_1_2 h_S_) main_v2 main_c
  let main_v4 : FVec F S1024x8192x2 .f32 := Host.absf main_arg1
  let main_cst_0 : FVec F S_ .f32 := constant S_ .f32 0x7F800000#32
  let main_v5 : FVec F S1024x8192x2 .f32 := broadcastInDim S1024x8192x2 ![] bcast_S_S1024x8192x2 main_cst_0
  let main_v6 : IVec S1024x8192x2 1 := cmpf .olt main_v4 main_v5
  let main_c_1 : IVec S_ 1 := constantI S_ 1 1#1
  let main_v7 : IVec S_ 1 := (fun x v => Host.reduce IntOp.andi x v reducesTo_S1024x8192x2_S_d0_1_2 h_S_) main_v6 main_c_1
  let main_v8 : IVec S_ 1 := andi main_v3 main_v7
  main_v8
-- ==== Kernel.lean ====
abbrev S1024x8192x2 : Shape := ⟨3, ![1024, 8192, 2]⟩
abbrev S1024x8192x1 : Shape := ⟨3, ![1024, 8192, 1]⟩
abbrev S1024x8192 : Shape := ⟨2, ![1024, 8192]⟩
abbrev S1x1 : Shape := ⟨2, ![1, 1]⟩
abbrev S32x8192 : Shape := ⟨2, ![32, 8192]⟩
abbrev S32 : Shape := ⟨1, ![32]⟩
abbrev S32x1 : Shape := ⟨2, ![32, 1]⟩
abbrev S1 : Shape := ⟨1, ![1]⟩
abbrev S_ : Shape := ⟨0, ![]⟩

abbrev nBuf : Space → Nat
  | .hbm => 14
  | .vmem => 10
  | .smem => 0
  | _ => 0

abbrev bufTy : (tb : Table) → Fin (tcTables nBuf tb) → BufTy
  | .hbm, ⟨0, _⟩ => ⟨S1024x8192x2, .f32⟩
  | .hbm, ⟨1, _⟩ => ⟨S1024x8192x2, .f32⟩
  | .hbm, ⟨2, _⟩ => ⟨S1024x8192x1, .f32⟩
  | .hbm, ⟨3, _⟩ => ⟨S1024x8192, .f32⟩
  | .hbm, ⟨4, _⟩ => ⟨S1024x8192x1, .f32⟩
  | .hbm, ⟨5, _⟩ => ⟨S1024x8192, .f32⟩
  | .hbm, ⟨6, _⟩ => ⟨S1024x8192x1, .f32⟩
  | .hbm, ⟨7, _⟩ => ⟨S1024x8192, .f32⟩
  | .hbm, ⟨8, _⟩ => ⟨S1024x8192x1, .f32⟩
  | .hbm, ⟨9, _⟩ => ⟨S1024x8192, .f32⟩
  | .hbm, ⟨10, _⟩ => ⟨S1x1, .f32⟩
  | .hbm, ⟨11, _⟩ => ⟨S1x1, .f32⟩
  | .hbm, ⟨12, _⟩ => ⟨S_, .f32⟩
  | .hbm, ⟨13, _⟩ => ⟨S_, .f32⟩
  | .local _ .vmem, ⟨0, _⟩ => ⟨S32x8192, .f32⟩
  | .local _ .vmem, ⟨1, _⟩ => ⟨S32x8192, .f32⟩
  | .local _ .vmem, ⟨2, _⟩ => ⟨S32x8192, .f32⟩
  | .local _ .vmem, ⟨3, _⟩ => ⟨S32x8192, .f32⟩
  | .local _ .vmem, ⟨4, _⟩ => ⟨S32x8192, .f32⟩
  | .local _ .vmem, ⟨5, _⟩ => ⟨S32x8192, .f32⟩
  | .local _ .vmem, ⟨6, _⟩ => ⟨S32x8192, .f32⟩
  | .local _ .vmem, ⟨7, _⟩ => ⟨S32x8192, .f32⟩
  | .local _ .vmem, ⟨8, _⟩ => ⟨S1x1, .f32⟩
  | .local _ .vmem, ⟨9, _⟩ => ⟨S1x1, .f32⟩
  | _, _ => ⟨S1024x8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  slices_S1024x8192x2_S1024x8192x1_0_0_0 : S1024x8192x2.Slices ![0, 0, 0] S1024x8192x1
  shapeCasts_S1024x8192x1_S1024x8192 : S1024x8192x1.ShapeCasts S1024x8192
  slices_S1024x8192x2_S1024x8192x1_0_0_1 : S1024x8192x2.Slices ![0, 0, 1] S1024x8192x1
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  rotates_S32x8192_d1 : S32x8192.Rotates 1 none
  iota_S32x8192_d1_w32 : S32x8192.Iotas .tc 32 [1]
  reduces_S32x8192_S32 : S32x8192.Reduces [1] S32
  shapeCasts_S32_S32x1 : S32.ShapeCasts S32x1
  reduces_S32x1_S1 : S32x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S1024x8192.size a
  hwx0_0 : ∀ i : grid0.Coords, EltTy.bits .f32 = 32 ∨ (Rect.block (s := S1024x8192) S32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8192.size a ≤ S1024x8192.size a
  hwx0_1 : ∀ i : grid0.Coords, EltTy.bits .f32 = 32 ∨ (Rect.block (s := S1024x8192) S32x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x8192.size a ≤ S1024x8192.size a
  hwx0_2 : ∀ i : grid0.Coords, EltTy.bits .f32 = 32 ∨ (Rect.block (s := S1024x8192) S32x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x8192.size a ≤ S1024x8192.size a
  hwx0_3 : ∀ i : grid0.Coords, EltTy.bits .f32 = 32 ∨ (Rect.block (s := S1024x8192) S32x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v1) S32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S32x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S32x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S32x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x8192x2 : Shape := ⟨3, ![1024, 8192, 2]⟩
abbrev S1024x8191x2 : Shape := ⟨3, ![1024, 8191, 2]⟩
abbrev S_ : Shape := ⟨0, ![]⟩
abbrev S1024x8191 : Shape := ⟨2, ![1024, 8191]⟩
abbrev S1024x1 : Shape := ⟨2, ![1024, 1]⟩
abbrev S1024x8192 : Shape := ⟨2, ![1024, 8192]⟩
abbrev S1024x8192x1 : Shape := ⟨3, ![1024, 8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S1024x8192x2, .f32⟩
  | .hbm, ⟨1, _⟩ => ⟨S1024x8192x2, .f32⟩
  | .hbm, ⟨2, _⟩ => ⟨S1024x8191x2, .f32⟩
  | .hbm, ⟨3, _⟩ => ⟨S1024x8191x2, .f32⟩
  | .hbm, ⟨4, _⟩ => ⟨S1024x8191x2, .i1⟩
  | .hbm, ⟨5, _⟩ => ⟨S_, .i1⟩
  | .hbm, ⟨6, _⟩ => ⟨S1024x8191, .i1⟩
  | .hbm, ⟨7, _⟩ => ⟨S_, .f32⟩
  | .hbm, ⟨8, _⟩ => ⟨S_, .f32⟩
  | .hbm, ⟨9, _⟩ => ⟨S1024x8191, .f32⟩
  | .hbm, ⟨10, _⟩ => ⟨S1024x8191, .f32⟩
  | .hbm, ⟨11, _⟩ => ⟨S1024x8191, .f32⟩
  | .hbm, ⟨12, _⟩ => ⟨S1024x8191, .f32⟩
  | .hbm, ⟨13, _⟩ => ⟨S_, .f32⟩
  | .hbm, ⟨14, _⟩ => ⟨S1024x1, .f32⟩
  | .hbm, ⟨15, _⟩ => ⟨S1024x8192, .f32⟩
  | .hbm, ⟨16, _⟩ => ⟨S1024x8192x2, .f32⟩
  | .hbm, ⟨17, _⟩ => ⟨S1024x8192x1, .f32⟩
  | .hbm, ⟨18, _⟩ => ⟨S1024x8192, .f32⟩
  | .hbm, ⟨19, _⟩ => ⟨S1024x8192, .f32⟩
  | .hbm, ⟨20, _⟩ => ⟨S1024x8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1024x8192x1, .f32⟩
  | .hbm, ⟨26, _⟩ => ⟨S1024x8192, .f32⟩
  | .hbm, ⟨27, _⟩ => ⟨S1024x8192, .f32⟩
  | .hbm, ⟨28, _⟩ => ⟨S1024x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S1024x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  slices_S1024x8192x2_S1024x8191x2_0_0_0 : S1024x8192x2.Slices ![0, 0, 0] S1024x8191x2
  slices_S1024x8192x2_S1024x8191x2_0_1_0 : S1024x8192x2.Slices ![0, 1, 0] S1024x8191x2
  reducesTo_S1024x8191x2_S1024x8191_d2 : S1024x8191x2.ReducesTo [2] S1024x8191
  h_S_ : 0 < S_.numel
  bcast_S_S1024x8191 : S_.BroadcastsInDim S1024x8191 (![] : Fin 0 → Fin S1024x8191.rank)
  bcast_S_S1024x1 : S_.BroadcastsInDim S1024x1 (![] : Fin 0 → Fin S1024x1.rank)
  concatenates_S1024x1_S1024x8191_S1024x8192_d1 : Shape.Concatenates [S1024x1, S1024x8191] S1024x8192 1
  slices_S1024x8192x2_S1024x8192x1_0_0_0 : S1024x8192x2.Slices ![0, 0, 0] S1024x8192x1
  shapeCasts_S1024x8192x1_S1024x8192 : S1024x8192x1.ShapeCasts S1024x8192
  reducesTo_S1024x8192_S_d0_1 : S1024x8192.ReducesTo [0, 1] S_
  slices_S1024x8192x2_S1024x8192x1_0_0_1 : S1024x8192x2.Slices ![0, 0, 1] S1024x8192x1

variable [Facts₀]

class Facts : Prop extends Facts₀ where

variable [Facts]
-- ==== Proof.CaseValues.lean ====
/-
  What each control case of the body leaves in the two accumulators, as values.

  The body computes, from the four input blocks, one partial sum per channel; it then adds the partial sum to the
  accumulator and stores the result. At the first grid point it stores the zero word first, so what it adds to is
  zero; at the last grid point it divides what it just stored by the count and stores the quotient. Each accumulator
  is a single [1, 1] cell, and every store covers it, so the cell ends holding the last value stored.
-/
import proofs.«145044_j79809082295091_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

theorem hz : (![0, 0] : Fin 2 → Nat) = fun _ => 0 := funext fun a => by fin_cases a <;> rfl

/-- A middle point, channel 0: the accumulator `xo4` plus this point's partial sum. -/
theorem mid_0 (c : Dev nD) (i : grid0.Coords) (a1 : Memref sig .tc .vmem S32x8192 .f32) (h1 : a1.IsWhole) (a2 : Memref sig .tc .vmem S32x8192 .f32) (h2 : a2.IsWhole) (a3 : Memref sig .tc .vmem S32x8192 .f32) (h3 : a3.IsWhole) (a4 : Memref sig .tc .vmem S32x8192 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i) (x0 x1 x2 x3 : Vec F S32x8192 .f32) (xo4 xo5 : Vec F S1x1 .f32) :
    out0_B_4 c i a1 h1 a2 h2 a3 h3 a4 h4 a5 h5 a6 h6 hc0 hc1 x0 x1 x2 x3 xo4 xo5 = k0_pay1 (k0_pay8 x0 x2 x3) xo4 := by
  unfold out0_B_4
  rw [View.read_writes_eq_canon _ _ _ (cover0_B_4 c i a1 h1 a2 h2 a3 h3 a4 h4 a5 h5 a6 h6 hc0 hc1 x0 x1 x2 x3 xo4 xo5)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S32x8192) hz, View.ld_unit_zero (S := S1x1) hz]

/-- A middle point, channel 1. -/
theorem mid_1 (c : Dev nD) (i : grid0.Coords) (a1 : Memref sig .tc .vmem S32x8192 .f32) (h1 : a1.IsWhole) (a2 : Memref sig .tc .vmem S32x8192 .f32) (h2 : a2.IsWhole) (a3 : Memref sig .tc .vmem S32x8192 .f32) (h3 : a3.IsWhole) (a4 : Memref sig .tc .vmem S32x8192 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i) (x0 x1 x2 x3 : Vec F S32x8192 .f32) (xo4 xo5 : Vec F S1x1 .f32) :
    out0_B_5 c i a1 h1 a2 h2 a3 h3 a4 h4 a5 h5 a6 h6 hc0 hc1 x0 x1 x2 x3 xo4 xo5 = k0_pay2 (k0_pay9 x1 x2 x3) xo5 := by
  unfold out0_B_5
  rw [View.read_writes_eq_canon _ _ _ (cover0_B_5 c i a1 h1 a2 h2 a3 h3 a4 h4 a5 h5 a6 h6 hc0 hc1 x0 x1 x2 x3 xo4 xo5)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S32x8192) hz, View.ld_unit_zero (S := S1x1) hz]

/-- The first point, channel 0: the zero word plus this point's partial sum. -/
theorem first_0 (c : Dev nD) (i : grid0.Coords) (a1 : Memref sig .tc .vmem S32x8192 .f32) (h1 : a1.IsWhole) (a2 : Memref sig .tc .vmem S32x8192 .f32) (h2 : a2.IsWhole) (a3 : Memref sig .tc .vmem S32x8192 .f32) (h3 : a3.IsWhole) (a4 : Memref sig .tc .vmem S32x8192 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i) (x0 x1 x2 x3 : Vec F S32x8192 .f32) :
    out0_A_4 c i a1 h1 a2 h2 a3 h3 a4 h4 a5 h5 a6 h6 hc0 hc1 x0 x1 x2 x3 = k0_pay1 (k0_pay8 x0 x2 x3) k0_pay10 := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, View.ld_unit_zero (S := S32x8192) hz, View.ld_unit_zero (S := S1x1) hz]

/-- The first point, channel 1. -/
theorem first_1 (c : Dev nD) (i : grid0.Coords) (a1 : Memref sig .tc .vmem S32x8192 .f32) (h1 : a1.IsWhole) (a2 : Memref sig .tc .vmem S32x8192 .f32) (h2 : a2.IsWhole) (a3 : Memref sig .tc .vmem S32x8192 .f32) (h3 : a3.IsWhole) (a4 : Memref sig .tc .vmem S32x8192 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i) (x0 x1 x2 x3 : Vec F S32x8192 .f32) :
    out0_A_5 c i a1 h1 a2 h2 a3 h3 a4 h4 a5 h5 a6 h6 hc0 hc1 x0 x1 x2 x3 = k0_pay2 (k0_pay9 x1 x2 x3) k0_pay11 := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, View.ld_unit_zero (S := S32x8192) hz, View.ld_unit_zero (S := S1x1) hz]

/-- The last point, channel 0: the accumulator plus this point's partial sum, divided by the count. -/
theorem last_0 (c : Dev nD) (i : grid0.Coords) (a1 : Memref sig .tc .vmem S32x8192 .f32) (h1 : a1.IsWhole) (a2 : Memref sig .tc .vmem S32x8192 .f32) (h2 : a2.IsWhole) (a3 : Memref sig .tc .vmem S32x8192 .f32) (h3 : a3.IsWhole) (a4 : Memref sig .tc .vmem S32x8192 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 x2 x3 : Vec F S32x8192 .f32) (xo4 xo5 : Vec F S1x1 .f32) :
    out0_C_4 c i a1 h1 a2 h2 a3 h3 a4 h4 a5 h5 a6 h6 hc0 hc1 x0 x1 x2 x3 xo4 xo5 = k0_pay3 (k0_pay1 (k0_pay8 x0 x2 x3) xo4) := by
  unfold out0_C_4
  rw [View.read_writes_eq_canon _ _ _ (cover0_C_4 c i a1 h1 a2 h2 a3 h3 a4 h4 a5 h5 a6 h6 hc0 hc1 x0 x1 x2 x3 xo4 xo5)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, View.ld_unit_zero (S := S32x8192) hz, View.ld_unit_zero (S := S1x1) hz]

/-- The last point, channel 1. -/
theorem last_1 (c : Dev nD) (i : grid0.Coords) (a1 : Memref sig .tc .vmem S32x8192 .f32) (h1 : a1.IsWhole) (a2 : Memref sig .tc .vmem S32x8192 .f32) (h2 : a2.IsWhole) (a3 : Memref sig .tc .vmem S32x8192 .f32) (h3 : a3.IsWhole) (a4 : Memref sig .tc .vmem S32x8192 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 x2 x3 : Vec F S32x8192 .f32) (xo4 xo5 : Vec F S1x1 .f32) :
    out0_C_5 c i a1 h1 a2 h2 a3 h3 a4 h4 a5 h5 a6 h6 hc0 hc1 x0 x1 x2 x3 xo4 xo5 = k0_pay4 (k0_pay2 (k0_pay9 x1 x2 x3) xo5) := by
  unfold out0_C_5
  rw [View.read_writes_eq_canon _ _ _ (cover0_C_5 c i a1 h1 a2 h2 a3 h3 a4 h4 a5 h5 a6 h6 hc0 hc1 x0 x1 x2 x3 xo4 xo5)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, View.ld_unit_zero (S := S32x8192) hz, View.ld_unit_zero (S := S1x1) hz]

end Cert.KernelIdeal.CaseValues

end
-- ==== Proof.Accumulate.lean ====
/-
  The two accumulators across the grid.

  Point n forms one partial sum per channel from its four input blocks. The accumulators start, at point 0, from the
  zero word plus that point's partial sums, and every later point adds its own; the last point (31) then divides by the
  count. By induction on the point, what the staging cells hold after point n < 31 is the running sum `running n`, and
  after point 31 it is the running sum through 31 divided by the count.
-/
import proofs.«145044_j79809082295091_2_alg».proof.Proof.Gen.KernelIdeal.Frame
import Idealize.ShloMosaic.Lib.Pipeline.Value
import Idealize.ShloMosaic.Lib.Tactic
import proofs.«145044_j79809082295091_2_alg».proof.Proof.CaseValues

noncomputable section

open Idealize.ShloMosaic Idealize.ShloMosaic.TcCoe Idealize.SL.Sem

namespace Cert.KernelIdeal.Accumulate

open Cert.KernelIdeal Cert.KernelIdeal.Gen

variable {F : FTy → Type} [FloatOps F]

open Cert.KernelIdeal.CaseValues

variable (m : (ℓ : Loc nD τ sig) → Buf (Elt F) ℓ)

/-- Point `n`'s partial sums, channel 0 and channel 1: the body's sums over the point's blocks (predictions of the
    channel, and both channels of the targets for the weights). -/
def partial0 (c : Dev nD) (n : ℕ) (h : n < cfg0.N) : Vec F S1x1 .f32 :=
  k0_pay8 (iblk m c 0 ⟨n, h⟩) (iblk m c 2 ⟨n, h⟩) (iblk m c 3 ⟨n, h⟩)
def partial1 (c : Dev nD) (n : ℕ) (h : n < cfg0.N) : Vec F S1x1 .f32 :=
  k0_pay9 (iblk m c 1 ⟨n, h⟩) (iblk m c 2 ⟨n, h⟩) (iblk m c 3 ⟨n, h⟩)

/-- The running sums after point `n`: the zero word plus point 0's partial sums, then each point's added. -/
def running (c : Dev nD) : (n : ℕ) → n < cfg0.N → Vec F S1x1 .f32 × Vec F S1x1 .f32
  | 0, h => (k0_pay1 (partial0 m c 0 h) k0_pay10, k0_pay2 (partial1 m c 0 h) k0_pay11)
  | n + 1, h => (k0_pay1 (partial0 m c (n + 1) h) (running c n (Nat.lt_of_succ_lt h)).1,
      k0_pay2 (partial1 m c (n + 1) h) (running c n (Nat.lt_of_succ_lt h)).2)

/-- Before the last point the staging cells hold the running sums. -/
theorem cells_eq_running (c : Dev nD) : ∀ (n : ℕ) (h : n < cfg0.N), n < 31 → outsAt0 m c n h = running m c n h
  | 0, h, _ => by
    refine (outsAt0_A m c ⟨0, h⟩ (Nat.zero_mod _) (by dsimp only; omega)).trans ?_
    show (_, _) = (k0_pay1 (partial0 m c 0 h) k0_pay10, k0_pay2 (partial1 m c 0 h) k0_pay11)
    refine congrArg₂ Prod.mk ?_ ?_
    · exact first_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) _ _ (iblk m c 0 ⟨0, h⟩) (iblk m c 1 ⟨0, h⟩) (iblk m c 2 ⟨0, h⟩) (iblk m c 3 ⟨0, h⟩)
    · exact first_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) _ _ (iblk m c 0 ⟨0, h⟩) (iblk m c 1 ⟨0, h⟩) (iblk m c 2 ⟨0, h⟩) (iblk m c 3 ⟨0, h⟩)
  | n + 1, h, hlt => by
    have hB0 : ¬(⟨n + 1, h⟩ : Fin cfg0.N).val % 32 = 0 := by dsimp only; omega
    have hB1 : ¬(⟨n + 1, h⟩ : Fin cfg0.N).val % 32 = 31 := by dsimp only; omega
    refine (outsAt0_B m c ⟨n + 1, h⟩ hB0 hB1).trans ?_
    show (_, _) = (k0_pay1 (partial0 m c (n + 1) h) (running m c n (Nat.lt_of_succ_lt h)).1,
      k0_pay2 (partial1 m c (n + 1) h) (running m c n (Nat.lt_of_succ_lt h)).2)
    refine congrArg₂ Prod.mk ?_ ?_
    · refine (mid_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) _ _ (iblk m c 0 ⟨n + 1, h⟩) (iblk m c 1 ⟨n + 1, h⟩) (iblk m c 2 ⟨n + 1, h⟩) (iblk m c 3 ⟨n + 1, h⟩) _ _).trans ?_
      show k0_pay1 _ (outsAt0 m c n _).1 = k0_pay1 _ (running m c n _).1
      rw [cells_eq_running c n _ (by omega)]
      rfl
    · refine (mid_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) _ _ (iblk m c 0 ⟨n + 1, h⟩) (iblk m c 1 ⟨n + 1, h⟩) (iblk m c 2 ⟨n + 1, h⟩) (iblk m c 3 ⟨n + 1, h⟩) _ _).trans ?_
      show k0_pay2 _ (outsAt0 m c n _).2 = k0_pay2 _ (running m c n _).2
      rw [cells_eq_running c n _ (by omega)]
      rfl

/-- After the last point they hold the running sums through it, each divided by the count. -/
theorem cells_last (c : Dev nD) (h : 31 < cfg0.N) :
    outsAt0 m c 31 h = (k0_pay3 (running m c 31 h).1, k0_pay4 (running m c 31 h).2) := by
  refine (outsAt0_C m c ⟨31, h⟩ (by dsimp only; omega) (by dsimp only)).trans ?_
  show (_, _) = (k0_pay3 (k0_pay1 (partial0 m c 31 h) (running m c 30 (Nat.lt_of_succ_lt h)).1),
    k0_pay4 (k0_pay2 (partial1 m c 31 h) (running m c 30 (Nat.lt_of_succ_lt h)).2))
  refine congrArg₂ Prod.mk ?_ ?_
  · refine (last_0 c (grid0.coords ⟨31, h⟩) (ms0_0 ⟨31, h⟩) (hs0_0 ⟨31, h⟩) (ms0_1 ⟨31, h⟩) (hs0_1 ⟨31, h⟩) (ms0_2 ⟨31, h⟩) (hs0_2 ⟨31, h⟩) (ms0_3 ⟨31, h⟩) (hs0_3 ⟨31, h⟩) (ms0_4 ⟨31, h⟩) (hs0_4 ⟨31, h⟩) (ms0_5 ⟨31, h⟩) (hs0_5 ⟨31, h⟩) _ _ (iblk m c 0 ⟨31, h⟩) (iblk m c 1 ⟨31, h⟩) (iblk m c 2 ⟨31, h⟩) (iblk m c 3 ⟨31, h⟩) _ _).trans ?_
    show k0_pay3 (k0_pay1 _ (outsAt0 m c 30 _).1) = k0_pay3 (k0_pay1 _ (running m c 30 _).1)
    rw [cells_eq_running m c 30 _ (by decide)]
    rfl
  · refine (last_1 c (grid0.coords ⟨31, h⟩) (ms0_0 ⟨31, h⟩) (hs0_0 ⟨31, h⟩) (ms0_1 ⟨31, h⟩) (hs0_1 ⟨31, h⟩) (ms0_2 ⟨31, h⟩) (hs0_2 ⟨31, h⟩) (ms0_3 ⟨31, h⟩) (hs0_3 ⟨31, h⟩) (ms0_4 ⟨31, h⟩) (hs0_4 ⟨31, h⟩) (ms0_5 ⟨31, h⟩) (hs0_5 ⟨31, h⟩) _ _ (iblk m c 0 ⟨31, h⟩) (iblk m c 1 ⟨31, h⟩) (iblk m c 2 ⟨31, h⟩) (iblk m c 3 ⟨31, h⟩) _ _).trans ?_
    show k0_pay4 (k0_pay2 _ (outsAt0 m c 30 _).2) = k0_pay4 (k0_pay2 _ (running m c 30 _).2)
    rw [cells_eq_running m c 30 _ (by decide)]
    rfl

end Cert.KernelIdeal.Accumulate

end
-- ==== Proof.Results.lean ====
/-
  The kernel program's two results.

  Each accumulator's block index never moves, so its staging cell is written back to the [1, 1] result array once,
  after the last grid point, and that one block is the whole array: the array ends holding what the cell held after
  the last point. After the region the program views each [1, 1] array as a scalar; a scalar has one index, and the
  view reads the array's one entry.
-/
import proofs.«145044_j79809082295091_2_alg».proof.Proof.Gen.KernelIdeal.Frame
import Idealize.ShloMosaic.Lib.Pipeline.Value
import Idealize.ShloMosaic.Lib.Tactic
import proofs.«145044_j79809082295091_2_alg».proof.Proof.Accumulate
import Idealize.ShloMosaic.Lib.StableHlo.Run
import Idealize.ShloMosaic.Lib.ValueIdx

noncomputable section

open Idealize.ShloMosaic Idealize.ShloMosaic.TcCoe Idealize.SL.Sem

namespace Cert.KernelIdeal.Results

open Cert.KernelIdeal Cert.KernelIdeal.Gen

variable {F : FTy → Type} [FloatOps F]

open Idealize.ShloMosaic.ValueIdx Cert.KernelIdeal.Accumulate
open Idealize.ShloMosaic.Pipeline (Dat)

variable (m : (ℓ : Loc nD τ sig) → Buf (Elt F) ℓ) (ρ : Dev nD → PrngReg)

/-- The last grid point. -/
def lastPt : Fin cfg0.N := ⟨31, by rw [show cfg0.N = 32 from N_0]; decide⟩

/-- What the two cells hold after the last point: the running sums through it, divided by the count. -/
def cell0 (c : Dev nD) : Buf (Elt F) ((c : Thread nD τ).loc main_v8_0) := k0_pay3 (running m c 31 lastPt.isLt).1
def cell1 (c : Dev nD) : Buf (Elt F) ((c : Thread nD τ).loc main_v8_1) := k0_pay4 (running m c 31 lastPt.isLt).2

/-- Output 0's one write-back, at the last point, writes the cell's final contents (the block is the whole 1×1 array). -/
theorem written_0 (c : Dev nD) (t : Fin cfg0.N) (hf : (cfg0.win 4).flush t = true) :
    (dats m 0 c).flushed 4 t = ((cfg0.win 4).blk t).view.read (Elt F) (cell0 m c) := by
  have hN : cfg0.N = 32 := N_0
  have h31 : t.val = 31 := by have := (flush0_4 t).mp hf; have := t.isLt; omega
  obtain rfl : t = lastPt := Fin.ext h31
  show (cfg0.win 4).cut (grid0.coords lastPt) ((dats m 0 c).after 4 lastPt) = _
  rw [after0_4]
  show (cfg0.win 4).cut (grid0.coords lastPt) (outsAt0 m c 31 lastPt.isLt).1 = _
  rw [cells_last m c lastPt.isLt]
  have hz' : (fun a => win0_4.index lastPt a * main_v8_0.ty.shape.size a) = fun _ => 0 :=
    funext fun a => by fin_cases a <;> decide +kernel
  exact (Memref.read_access_unit_zero (Elt F) main_v8_0 hz' (fun a => by rw [congrFun hz' a]; simp) (cell0 m c)).symm

/-- So result array 0 ends holding it. -/
theorem array_0 (c : Dev nD) : (dats m 0 c).arrAt 4 cfg0.N = cell0 m c :=
  (dats m 0 c).arrAt_eq_of_cover 4 (cell0 m c) (written_0 m c) fun i =>
    ⟨lastPt, (flush0_4 lastPt).mpr rfl, by
      show i ∈ ((View.whole main_v8_0).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index lastPt 0 * win0_4.size 0 ≤ (i 0 : Nat) ∧ (i 0 : Nat) < win0_4.index lastPt 0 * win0_4.size 0 + win0_4.xsize (grid0.coords lastPt) 0
        rw [show win0_4.index lastPt 0 * win0_4.size 0 = 0 from by decide +kernel, show win0_4.xsize (grid0.coords lastPt) 0 = 1 from by decide +kernel]; omega
      | ⟨1, _⟩ =>
        show win0_4.index lastPt 1 * win0_4.size 1 ≤ (i 1 : Nat) ∧ (i 1 : Nat) < win0_4.index lastPt 1 * win0_4.size 1 + win0_4.xsize (grid0.coords lastPt) 1
        rw [show win0_4.index lastPt 1 * win0_4.size 1 = 0 from by decide +kernel, show win0_4.xsize (grid0.coords lastPt) 1 = 1 from by decide +kernel]; omega⟩

/-- Output 1's one write-back, at the last point, writes the cell's final contents (the block is the whole 1×1 array). -/
theorem written_1 (c : Dev nD) (t : Fin cfg0.N) (hf : (cfg0.win 5).flush t = true) :
    (dats m 0 c).flushed 5 t = ((cfg0.win 5).blk t).view.read (Elt F) (cell1 m c) := by
  have hN : cfg0.N = 32 := N_0
  have h31 : t.val = 31 := by have := (flush0_5 t).mp hf; have := t.isLt; omega
  obtain rfl : t = lastPt := Fin.ext h31
  show (cfg0.win 5).cut (grid0.coords lastPt) ((dats m 0 c).after 5 lastPt) = _
  rw [after0_5]
  show (cfg0.win 5).cut (grid0.coords lastPt) (outsAt0 m c 31 lastPt.isLt).2 = _
  rw [cells_last m c lastPt.isLt]
  have hz' : (fun a => win0_5.index lastPt a * main_v8_1.ty.shape.size a) = fun _ => 0 :=
    funext fun a => by fin_cases a <;> decide +kernel
  exact (Memref.read_access_unit_zero (Elt F) main_v8_1 hz' (fun a => by rw [congrFun hz' a]; simp) (cell1 m c)).symm

/-- So result array 1 ends holding it. -/
theorem array_1 (c : Dev nD) : (dats m 0 c).arrAt 5 cfg0.N = cell1 m c :=
  (dats m 0 c).arrAt_eq_of_cover 5 (cell1 m c) (written_1 m c) fun i =>
    ⟨lastPt, (flush0_5 lastPt).mpr rfl, by
      show i ∈ ((View.whole main_v8_1).slice (win0_5.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index lastPt 0 * win0_5.size 0 ≤ (i 0 : Nat) ∧ (i 0 : Nat) < win0_5.index lastPt 0 * win0_5.size 0 + win0_5.xsize (grid0.coords lastPt) 0
        rw [show win0_5.index lastPt 0 * win0_5.size 0 = 0 from by decide +kernel, show win0_5.xsize (grid0.coords lastPt) 0 = 1 from by decide +kernel]; omega
      | ⟨1, _⟩ =>
        show win0_5.index lastPt 1 * win0_5.size 1 ≤ (i 1 : Nat) ∧ (i 1 : Nat) < win0_5.index lastPt 1 * win0_5.size 1 + win0_5.xsize (grid0.coords lastPt) 1
        rw [show win0_5.index lastPt 1 * win0_5.size 1 = 0 from by decide +kernel, show win0_5.xsize (grid0.coords lastPt) 1 = 1 from by decide +kernel]; omega⟩

/-- A [1, 1] array viewed as a scalar reads its one entry. -/
theorem scalar_view {α : Type} (x : S1x1.Idx → α) (j : S_.Idx) : shapeCast S_ x shapeCasts_S1x1_S_ j = x (ix2 0 0) :=
  shapeCast_apply x shapeCasts_S1x1_S_ j (ix2 0 0) (by
    rw [Shape.rowMajor_val_two]
    rfl)

/-- The first result, after the reshape that follows the region. -/
theorem result_0 (c : Dev nD) (j : S_.Idx) :
    (Pipeline.afterTail₀ cfgs (dats m) 0 (V0 m) [hostOps1] c main_v9 : S_.Idx → Elt F .f32) j = (cell0 m c : S1x1.Idx → Elt F .f32) (ix2 0 0) := by
  unfold Pipeline.afterTail₀
  have e : (StableHlo.after hostOps1 (Pipeline.withArrays (cfgs 0).spec c (V0 m c) fun w => (dats m 0 c).arrAt w (cfgs 0).N)
      (Proc.devRef .tc main_v9) : S_.Idx → Elt F .f32)
      = shapeCast S_ ((dats m 0 c).arrAt 4 cfg0.N : S1x1.Idx → Elt F .f32) shapeCasts_S1x1_S_ := by
    after_results
    rw [Pipeline.withArrays_arr spec0 launch0.win.arr_inj c _ _ 4]
    rfl
  show (StableHlo.after hostOps1 _ (Proc.devRef .tc main_v9) : S_.Idx → Elt F .f32) j = _
  rw [e, array_0, scalar_view]

/-- The second result. -/
theorem result_1 (c : Dev nD) (j : S_.Idx) :
    (Pipeline.afterTail₀ cfgs (dats m) 0 (V0 m) [hostOps1] c main_v10 : S_.Idx → Elt F .f32) j = (cell1 m c : S1x1.Idx → Elt F .f32) (ix2 0 0) := by
  unfold Pipeline.afterTail₀
  have e : (StableHlo.after hostOps1 (Pipeline.withArrays (cfgs 0).spec c (V0 m c) fun w => (dats m 0 c).arrAt w (cfgs 0).N)
      (Proc.devRef .tc main_v10) : S_.Idx → Elt F .f32)
      = shapeCast S_ ((dats m 0 c).arrAt 5 cfg0.N : S1x1.Idx → Elt F .f32) shapeCasts_S1x1_S_ := by
    after_results
    rw [Pipeline.withArrays_arr spec0 launch0.win.arr_inj c _ _ 5]
    rfl
  show (StableHlo.after hostOps1 _ (Proc.devRef .tc main_v10) : S_.Idx → Elt F .f32) j = _
  rw [e, array_1, scalar_view]

/-- The run, read: both results at the cells' final contents, the arguments unchanged. -/
theorem run : θ_run defs (onTc (τ := τ) (main (F := F))) ⟨m, fun _ => 0, ρ⟩ fun r => ∀ c : Dev nD,
      r.2.mem ((c.tc : Thread nD τ).loc main_v9) = (fun _ => (cell0 m c : S1x1.Idx → Elt F .f32) (ix2 0 0))
      ∧ r.2.mem ((c.tc : Thread nD τ).loc main_v10) = (fun _ => (cell1 m c : S1x1.Idx → Elt F .f32) (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans (funext fun j => result_0 m c j),
     ((h c).2 main_v10 (Pipeline.mem_restRefs_of main_v10 (by decide) (by decide))).trans (funext fun j => result_1 m c j),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Results

end
-- ==== Proof.ChangepointLoss.lean ====
/-
  The changepoint-weighted mean squared error, as one function of the two argument arrays.

  P (the predictions) and A (the targets) are arrays of shape [1024, 8192, 2] over the extended reals: a batch row b, a
  time t, a channel c. Position (b, t) carries the weight 1 when t = 0, and otherwise the weight 2 if some channel of A
  differs between time t - 1 and time t, else 1. Channel c's loss is the sum over all (b, t) of
  (P - A)² · weight at channel c, added to the zero word, divided by 2²³ = 1024 · 8192.

  The weight looks one step back in time cyclically (`prev 0 = 8191`), which is never read: at t = 0 the weight is 1
  whatever the neighbour holds.

  The one law used to compare two ways of forming the sum: a sum over all rows is the sum, over the 32 groups of 32
  consecutive rows, of the groups' sums. It only regroups a finite sum in a commutative monoid, so it holds on the
  extended reals with no finiteness assumption.
-/
import Idealize.ShloMosaic.PureOps.Ideal
import Idealize.ShloMosaic.Lib.ValueIdx

noncomputable section

namespace Cert.ChangepointLoss

open Idealize.ShloMosaic Idealize.ShloMosaic.ValueIdx

/-- An argument array: [1024, 8192, 2] extended reals. -/
abbrev Arr : Type := (⟨3, ![1024, 8192, 2]⟩ : Shape).Idx → EReal

/-- The words 1.0, 2.0, 0.0 and 2²³, each left as the value its pattern denotes. -/
abbrev wOne : EReal := Ideal.ofBits .f32 0x3F800000#32
abbrev wTwo : EReal := Ideal.ofBits .f32 0x40000000#32
abbrev wZero : EReal := Ideal.ofBits .f32 0x00000000#32
abbrev wCount : EReal := Ideal.ofBits .f32 0x4B000000#32

/-- The time before `t`, cyclically. -/
def prev (t : Fin 8192) : Fin 8192 := ⟨(t.val + 8191) % 8192, Nat.mod_lt _ (by norm_num)⟩

theorem prev_val_of_pos (t : Fin 8192) (h : 0 < t.val) : (prev t).val = t.val - 1 := by
  have := t.isLt
  show (t.val + 8191) % 8192 = t.val - 1
  omega

/-- Some channel of the targets changes between the time before `t` and `t`. -/
abbrev Changes (A : Arr) (b : Fin 1024) (t : Fin 8192) : Prop :=
  A (ix3 b t 0) ≠ A (ix3 b (prev t) 0) ∨ A (ix3 b t 1) ≠ A (ix3 b (prev t) 1)

/-- The weight of position (b, t). -/
def weight (A : Arr) (b : Fin 1024) (t : Fin 8192) : EReal :=
  if t.val = 0 then wOne else if Changes A b t then wTwo else wOne

/-- Channel `c`'s weighted squared error at (b, t). -/
def term (P A : Arr) (c : Fin 2) (b : Fin 1024) (t : Fin 8192) : EReal :=
  (P (ix3 b t c) - A (ix3 b t c)) * (P (ix3 b t c) - A (ix3 b t c)) * weight A b t

/-- Channel `c`'s loss. -/
def loss (P A : Arr) (c : Fin 2) : EReal :=
  Ideal.div (wZero + ∑ j : (⟨2, ![1024, 8192]⟩ : Shape).Idx, term P A c (j 0) (j 1)) wCount

/-- Row `r` of the `i`-th group of 32 consecutive rows. -/
def row (i : ℕ) (r : Fin 32) : Fin 1024 := ⟨(32 * i + r.val) % 1024, Nat.mod_lt _ (by norm_num)⟩

/-- The sum of channel `c`'s terms over the `i`-th group of rows. -/
def groupSum (P A : Arr) (c : Fin 2) (i : ℕ) : EReal :=
  ∑ r : Fin 32, ∑ t : Fin 8192, term P A c (row i r) t

/-- A sum over the 1024 rows, group by group. -/
theorem sum_rows_by_group {M : Type*} [AddCommMonoid M] (g : Fin 1024 → M) :
    ∑ b : Fin 1024, g b = ∑ i ∈ Finset.range 32, ∑ r : Fin 32, g (row i r) := by
  rw [Finset.sum_range (fun i => ∑ r : Fin 32, g (row i r))]
  rw [← Fintype.sum_prod_type' (f := fun (i : Fin 32) (r : Fin 32) => g (row i.val r))]
  refine (Fintype.sum_equiv (finProdFinEquiv (m := 32) (n := 32)) _ _ fun x => ?_).symm
  refine congrArg g (Fin.ext ?_)
  have h1 := x.1.isLt
  have h2 := x.2.isLt
  show (32 * x.1.val + x.2.val) % 1024 = x.2.val + 32 * x.1.val
  omega

/-- The sum over every position is the sum of the 32 groups' sums. -/
theorem total_eq_groups (P A : Arr) (c : Fin 2) :
    ∑ j : (⟨2, ![1024, 8192]⟩ : Shape).Idx, term P A c (j 0) (j 1) = ∑ i ∈ Finset.range 32, groupSum P A c i := by
  rw [sum_idx2 (n0 := 1024) (n1 := 8192) (fun j => term P A c (j 0) (j 1))]
  exact sum_rows_by_group (fun b => ∑ t : Fin 8192, term P A c b t)

/-- So the loss is the zero word plus the groups' sums, divided by the count. -/
theorem loss_eq_groups (P A : Arr) (c : Fin 2) :
    loss P A c = Ideal.div (wZero + ∑ i ∈ Finset.range 32, groupSum P A c i) wCount := by
  unfold loss
  rw [total_eq_groups]

end Cert.ChangepointLoss

end
-- ==== Proof.LibAxisOps.lean ====
/-
  Four more operations on small-rank vectors read at coordinates. Every statement is over arbitrary extents and spells
  indices by their coordinates.

  * A sum over the FIRST axis of an [A, B] vector of extended reals, at b: the sum over k of the entry at (k, b).
  * A rotation by one place along the last axis of an [A, B] vector, at (a, b): the entry at (a, b - 1), the index
    taken cyclically, so that position 0 reads position B - 1.
  * Channel ch of an [N, T, C] array, cut out as [N, T, 1] and viewed as [N, T], at (b, t): the entry at (b, t, ch).
  * A host "or" over the last axis, of length two, of an [A, B, 2] array of bits, at (a, b): the "or" of the two bits
    and the initial bit.
-/
import Idealize.ShloMosaic.PureOps.Ideal.Laws
import Idealize.ShloMosaic.PureOps.Reduce
import Idealize.ShloMosaic.Lib.ValueIdx
import Idealize.ShloMosaic.Lib.Pipeline.Value

noncomputable section

namespace Cert.LibAxisOps

open Idealize.ShloMosaic Idealize.ShloMosaic.ValueIdx

/-- A sum over the first axis of an [A, B] vector, at b: the sum over k of the entry at (k, b). -/
theorem sum_first2 {A B : ℕ} (src : FVec Ideal ⟨2, ![A, B]⟩ .f32)
    (h : (⟨2, ![A, B]⟩ : Shape).Reduces [0] ⟨1, ![B]⟩) (hφ : FKind.Formats .f32)
    (hacc : (0x00000000#32 : BitVec 32) = 0x00000000#32) (b : Fin B) :
    multiReduction .add [0] ⟨1, ![B]⟩ src 0x00000000#32 h hφ hacc (ix1 b) = ∑ k : Fin A, src (ix2 k b) := by
  refine (Ideal.multiReduction_add_single src 0x00000000#32 h hφ hacc (ix1 b)).trans ?_
  refine Finset.sum_congr rfl fun k _ => congrArg src ?_
  funext d
  match d with
  | ⟨0, _⟩ => rfl
  | ⟨1, _⟩ => rfl

variable {α : Type}

/-- The position one place before `b` on an axis of extent `B`, cyclically. -/
def before {B : ℕ} (b : Fin B) : Fin B := ⟨(b.val + B - 1 % B) % B, Nat.mod_lt _ (Fin.pos b)⟩

/-- A rotation by one place along the last axis of an [A, B] vector, at (a, b): the entry one place before. -/
theorem rotate_one_last2 {A B : ℕ} (x : (⟨2, ![A, B]⟩ : Shape).Idx → α)
    (h : (⟨2, ![A, B]⟩ : Shape).Rotates 1 none) (a : Fin A) (b : Fin B) :
    dynamicRotate 1 1#32 none x h (ix2 a b) = x (ix2 a (before b)) := by
  unfold dynamicRotate
  refine congrArg x (funext fun d => ?_)
  match d with
  | ⟨0, _⟩ => exact if_neg (Fin.ne_of_val_ne Nat.zero_ne_one)
  | ⟨1, _⟩ => exact if_pos rfl

/-- Channel `ch` of an [N, T, C] array, cut out as [N, T, 1] and viewed as [N, T], at (b, t): the entry at (b, t, ch). -/
theorem channel_plane_apply {N T C : ℕ} (X : (⟨3, ![N, T, C]⟩ : Shape).Idx → α) (ch : Fin C)
    (hs : (⟨3, ![N, T, C]⟩ : Shape).Slices ![0, 0, ch.val] ⟨3, ![N, T, 1]⟩)
    (hc : (⟨3, ![N, T, 1]⟩ : Shape).ShapeCasts ⟨2, ![N, T]⟩) (b : Fin N) (t : Fin T) :
    shapeCast ⟨2, ![N, T]⟩ (extractStridedSlice ⟨3, ![N, T, 1]⟩ ![0, 0, ch.val] X hs) hc (ix2 b t) = X (ix3 b t ch) := by
  refine (shapeCast_apply _ hc (ix2 b t) (ix3 b t (0 : Fin 1)) ?_).trans ?_
  · rw [Shape.rowMajor_val_three, Shape.rowMajor_val_two]
    show (b.val * T + t.val) * 1 + 0 = b.val * T + t.val
    omega
  · refine extractStridedSlice_apply ![0, 0, ch.val] X hs (ix3 b t (0 : Fin 1)) (ix3 b t ch) fun a => ?_
    match a with
    | ⟨0, _⟩ => show b.val = 0 + b.val; omega
    | ⟨1, _⟩ => show t.val = 0 + t.val; omega
    | ⟨2, _⟩ => show ch.val = ch.val + 0; omega

/-- An "or" folded over two bits from an initial bit. -/
theorem fold_or_two (g : Fin 2 → BitVec 1) (i0 : BitVec 1) :
    Finset.fold IntOp.ori i0 g (Finset.univ : Finset (Fin 2)) = IntOp.ori (g 0) (IntOp.ori (g 1) i0) := by
  have hU : (Finset.univ : Finset (Fin 2)) = insert 0 {1} := by decide
  rw [hU, Finset.fold_insert (by decide), Finset.fold_singleton]

/-- A host "or" over the last axis, of length two, of an [A, B, 2] array of bits, at (a, b): the "or" of the two bits
    and the initial bit. -/
theorem hostOr_last2 {A B : ℕ} (x : (⟨3, ![A, B, 2]⟩ : Shape).Idx → BitVec 1) (init : (⟨0, ![]⟩ : Shape).Idx → BitVec 1)
    (h' : (⟨3, ![A, B, 2]⟩ : Shape).ReducesTo [2] ⟨2, ![A, B]⟩) (h : (⟨3, ![A, B, 2]⟩ : Shape).Reduces [2] ⟨2, ![A, B]⟩)
    (hu : 0 < (⟨0, ![]⟩ : Shape).numel) (a : Fin A) (b : Fin B) :
    Host.reduce IntOp.ori x init h' hu (ix2 a b)
      = IntOp.ori (x (ix3 a b 0)) (IntOp.ori (x (ix3 a b 1)) (init ix0)) := by
  rw [Host.reduce_eq_fold_single IntOp.ori x init h' h hu (ix2 a b)]
  refine (fold_or_two (x ∘ h.lift (ix2 a b)) (init (Shape.Idx.first hu))).trans ?_
  have e0 : h.lift (ix2 a b) (0 : Fin 2) = ix3 a b 0 := funext fun d => by
    match d with
    | ⟨0, _⟩ => rfl
    | ⟨1, _⟩ => rfl
    | ⟨2, _⟩ => rfl
  have e1 : h.lift (ix2 a b) (1 : Fin 2) = ix3 a b 1 := funext fun d => by
    match d with
    | ⟨0, _⟩ => rfl
    | ⟨1, _⟩ => rfl
    | ⟨2, _⟩ => rfl
  have ei : Shape.Idx.first hu = (ix0 : (⟨0, ![]⟩ : Shape).Idx) := funext fun d => d.elim0
  show IntOp.ori (x (h.lift (ix2 a b) (0 : Fin 2))) (IntOp.ori (x (h.lift (ix2 a b) (1 : Fin 2))) (init (Shape.Idx.first hu))) = _
  rw [e0, e1, ei]

end Cert.LibAxisOps

end
-- ==== Proof.Blocks.lean ====
/-
  What the four input windows hold.

  Before the region the program cuts each argument array into its two channels: four [1024, 8192] planes, in the order
  predictions channel 0, predictions channel 1, targets channel 0, targets channel 1. Each window steps through its
  plane in 32 blocks of 32 whole rows, so its block at grid point t, read at (r, s), is the plane's row 32·t + r at
  time s.
-/
import proofs.«145044_j79809082295091_2_alg».proof.Proof.Gen.KernelIdeal.Frame
import Idealize.ShloMosaic.Lib.Pipeline.Value
import Idealize.ShloMosaic.Lib.Tactic
import proofs.«145044_j79809082295091_2_alg».proof.Proof.ChangepointLoss
import proofs.«145044_j79809082295091_2_alg».proof.Proof.LibAxisOps
import Idealize.ShloMosaic.Lib.StableHlo.Run
import Idealize.ShloMosaic.Lib.ValueIdx

noncomputable section

open Idealize.ShloMosaic Idealize.ShloMosaic.TcCoe Idealize.SL.Sem

namespace Cert.KernelIdeal.Blocks

open Cert.KernelIdeal Cert.KernelIdeal.Gen

variable {F : FTy → Type} [FloatOps F]

open Idealize.ShloMosaic.ValueIdx Cert.ChangepointLoss

variable (m : (ℓ : Loc nD τ sig) → Buf (Elt F) ℓ)

/-- Window 0's array when the region starts: channel 0 of the predictions, as a [1024, 8192] plane. -/
theorem entry_0 (c : Dev nD) (b : Fin 1024) (s : Fin 8192) :
    (V m c main_v1 : S1024x8192.Idx → Elt F .f32) (ix2 b s) = m ((c : Thread nD τ).loc main_arg0) (ix3 b s (0 : Fin 2)) := by
  have e : (V m c main_v1 : S1024x8192.Idx → Elt F .f32)
      = shapeCast S1024x8192 (extractStridedSlice S1024x8192x1 ![0, 0, 0] (m ((c : Thread nD τ).loc main_arg0)) slices_S1024x8192x2_S1024x8192x1_0_0_0)
          shapeCasts_S1024x8192x1_S1024x8192 := by
    show StableHlo.after hostOps0 (fun b => m (c, b)) (Proc.devRef .tc main_v1) = _
    after_results
    rfl
  rw [e]
  exact LibAxisOps.channel_plane_apply (N := 1024) (T := 8192) (C := 2) (m ((c : Thread nD τ).loc main_arg0)) (0 : Fin 2) slices_S1024x8192x2_S1024x8192x1_0_0_0
    shapeCasts_S1024x8192x1_S1024x8192 b s

/-- Window 0's index map: block row `t`, block column 0. -/
theorem index_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 0's block at point `t`, at (r, s): row 32·t + r, time s, channel 0 of the predictions. -/
theorem block_0 (c : Dev nD) (t : Fin cfg0.N) (r : Fin 32) (s : Fin 8192) :
    (iblk m c 0 t : Vec F S32x8192 .f32) (ix2 r s) = m ((c : Thread nD τ).loc main_arg0) (ix3 (row t.val r) s (0 : Fin 2)) := by
  have hN : t.val < 32 := lt_of_lt_of_eq t.isLt (show cfg0.N = 32 from N_0)
  have hr := r.isLt
  rw [← entry_0 m c (row t.val r) s]
  unfold iblk
  rw [View.read_apply]
  show V m c main_v1 _ = V m c main_v1 _
  refine congrArg (V m c main_v1) (funext fun a => Fin.ext ?_)
  match a with
  | ⟨0, _⟩ =>
    show win0_0.index t 0 * 32 + 1 * r.val = (32 * t.val + r.val) % 1024
    rw [(index_0 t).1]; omega
  | ⟨1, _⟩ =>
    show win0_0.index t 1 * 8192 + 1 * s.val = s.val
    rw [(index_0 t).2]; omega

/-- Window 1's array when the region starts: channel 1 of the predictions, as a [1024, 8192] plane. -/
theorem entry_1 (c : Dev nD) (b : Fin 1024) (s : Fin 8192) :
    (V m c main_v3 : S1024x8192.Idx → Elt F .f32) (ix2 b s) = m ((c : Thread nD τ).loc main_arg0) (ix3 b s (1 : Fin 2)) := by
  have e : (V m c main_v3 : S1024x8192.Idx → Elt F .f32)
      = shapeCast S1024x8192 (extractStridedSlice S1024x8192x1 ![0, 0, 1] (m ((c : Thread nD τ).loc main_arg0)) slices_S1024x8192x2_S1024x8192x1_0_0_1)
          shapeCasts_S1024x8192x1_S1024x8192 := by
    show StableHlo.after hostOps0 (fun b => m (c, b)) (Proc.devRef .tc main_v3) = _
    after_results
    rfl
  rw [e]
  exact LibAxisOps.channel_plane_apply (N := 1024) (T := 8192) (C := 2) (m ((c : Thread nD τ).loc main_arg0)) (1 : Fin 2) slices_S1024x8192x2_S1024x8192x1_0_0_1
    shapeCasts_S1024x8192x1_S1024x8192 b s

/-- Window 1's index map: block row `t`, block column 0. -/
theorem index_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Window 1's block at point `t`, at (r, s): row 32·t + r, time s, channel 1 of the predictions. -/
theorem block_1 (c : Dev nD) (t : Fin cfg0.N) (r : Fin 32) (s : Fin 8192) :
    (iblk m c 1 t : Vec F S32x8192 .f32) (ix2 r s) = m ((c : Thread nD τ).loc main_arg0) (ix3 (row t.val r) s (1 : Fin 2)) := by
  have hN : t.val < 32 := lt_of_lt_of_eq t.isLt (show cfg0.N = 32 from N_0)
  have hr := r.isLt
  rw [← entry_1 m c (row t.val r) s]
  unfold iblk
  rw [View.read_apply]
  show V m c main_v3 _ = V m c main_v3 _
  refine congrArg (V m c main_v3) (funext fun a => Fin.ext ?_)
  match a with
  | ⟨0, _⟩ =>
    show win0_1.index t 0 * 32 + 1 * r.val = (32 * t.val + r.val) % 1024
    rw [(index_1 t).1]; omega
  | ⟨1, _⟩ =>
    show win0_1.index t 1 * 8192 + 1 * s.val = s.val
    rw [(index_1 t).2]; omega

/-- Window 2's array when the region starts: channel 0 of the targets, as a [1024, 8192] plane. -/
theorem entry_2 (c : Dev nD) (b : Fin 1024) (s : Fin 8192) :
    (V m c main_v5 : S1024x8192.Idx → Elt F .f32) (ix2 b s) = m ((c : Thread nD τ).loc main_arg1) (ix3 b s (0 : Fin 2)) := by
  have e : (V m c main_v5 : S1024x8192.Idx → Elt F .f32)
      = shapeCast S1024x8192 (extractStridedSlice S1024x8192x1 ![0, 0, 0] (m ((c : Thread nD τ).loc main_arg1)) slices_S1024x8192x2_S1024x8192x1_0_0_0)
          shapeCasts_S1024x8192x1_S1024x8192 := by
    show StableHlo.after hostOps0 (fun b => m (c, b)) (Proc.devRef .tc main_v5) = _
    after_results
    rfl
  rw [e]
  exact LibAxisOps.channel_plane_apply (N := 1024) (T := 8192) (C := 2) (m ((c : Thread nD τ).loc main_arg1)) (0 : Fin 2) slices_S1024x8192x2_S1024x8192x1_0_0_0
    shapeCasts_S1024x8192x1_S1024x8192 b s

/-- Window 2's index map: block row `t`, block column 0. -/
theorem index_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Window 2's block at point `t`, at (r, s): row 32·t + r, time s, channel 0 of the targets. -/
theorem block_2 (c : Dev nD) (t : Fin cfg0.N) (r : Fin 32) (s : Fin 8192) :
    (iblk m c 2 t : Vec F S32x8192 .f32) (ix2 r s) = m ((c : Thread nD τ).loc main_arg1) (ix3 (row t.val r) s (0 : Fin 2)) := by
  have hN : t.val < 32 := lt_of_lt_of_eq t.isLt (show cfg0.N = 32 from N_0)
  have hr := r.isLt
  rw [← entry_2 m c (row t.val r) s]
  unfold iblk
  rw [View.read_apply]
  show V m c main_v5 _ = V m c main_v5 _
  refine congrArg (V m c main_v5) (funext fun a => Fin.ext ?_)
  match a with
  | ⟨0, _⟩ =>
    show win0_2.index t 0 * 32 + 1 * r.val = (32 * t.val + r.val) % 1024
    rw [(index_2 t).1]; omega
  | ⟨1, _⟩ =>
    show win0_2.index t 1 * 8192 + 1 * s.val = s.val
    rw [(index_2 t).2]; omega

/-- Window 3's array when the region starts: channel 1 of the targets, as a [1024, 8192] plane. -/
theorem entry_3 (c : Dev nD) (b : Fin 1024) (s : Fin 8192) :
    (V m c main_v7 : S1024x8192.Idx → Elt F .f32) (ix2 b s) = m ((c : Thread nD τ).loc main_arg1) (ix3 b s (1 : Fin 2)) := by
  have e : (V m c main_v7 : S1024x8192.Idx → Elt F .f32)
      = shapeCast S1024x8192 (extractStridedSlice S1024x8192x1 ![0, 0, 1] (m ((c : Thread nD τ).loc main_arg1)) slices_S1024x8192x2_S1024x8192x1_0_0_1)
          shapeCasts_S1024x8192x1_S1024x8192 := by
    show StableHlo.after hostOps0 (fun b => m (c, b)) (Proc.devRef .tc main_v7) = _
    after_results
    rfl
  rw [e]
  exact LibAxisOps.channel_plane_apply (N := 1024) (T := 8192) (C := 2) (m ((c : Thread nD τ).loc main_arg1)) (1 : Fin 2) slices_S1024x8192x2_S1024x8192x1_0_0_1
    shapeCasts_S1024x8192x1_S1024x8192 b s

/-- Window 3's index map: block row `t`, block column 0. -/
theorem index_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Window 3's block at point `t`, at (r, s): row 32·t + r, time s, channel 1 of the targets. -/
theorem block_3 (c : Dev nD) (t : Fin cfg0.N) (r : Fin 32) (s : Fin 8192) :
    (iblk m c 3 t : Vec F S32x8192 .f32) (ix2 r s) = m ((c : Thread nD τ).loc main_arg1) (ix3 (row t.val r) s (1 : Fin 2)) := by
  have hN : t.val < 32 := lt_of_lt_of_eq t.isLt (show cfg0.N = 32 from N_0)
  have hr := r.isLt
  rw [← entry_3 m c (row t.val r) s]
  unfold iblk
  rw [View.read_apply]
  show V m c main_v7 _ = V m c main_v7 _
  refine congrArg (V m c main_v7) (funext fun a => Fin.ext ?_)
  match a with
  | ⟨0, _⟩ =>
    show win0_3.index t 0 * 32 + 1 * r.val = (32 * t.val + r.val) % 1024
    rw [(index_3 t).1]; omega
  | ⟨1, _⟩ =>
    show win0_3.index t 1 * 8192 + 1 * s.val = s.val
    rw [(index_3 t).2]; omega

end Cert.KernelIdeal.Blocks

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.PointSums.lean ====
/-
  One grid point's arithmetic, over the extended reals.

  From a block `x` of predictions of one channel and the two blocks `y0`, `y1` of the targets' channels — each 32 rows by
  8192 times — the body forms the weight of every (row, time): 1 at time 0, else 2 if `y0` or `y1` differs from its
  value one time earlier in the same row, else 1; and then the sum over all rows and times of (x - y)² · weight, with
  y the targets' block of the same channel as x. The sums are taken in two stages (over times, then over rows), each
  from a zero accumulator; over the extended reals that is the double sum.
-/
import proofs.«145044_j79809082295091_2_alg».proof.Proof.Gen.KernelIdeal.Skeleton
import proofs.«145044_j79809082295091_2_alg».proof.Proof.ChangepointLoss
import proofs.«145044_j79809082295091_2_alg».proof.Proof.LibRowOps
import proofs.«145044_j79809082295091_2_alg».proof.Proof.LibAxisOps
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.PointSums

open Cert.KernelIdeal Cert.KernelIdeal.Gen Cert.ChangepointLoss

variable {α : Type}

/-- Choosing by the "or" of two "differs" tests is choosing by the disjunction. -/
theorem select_differs (a a' b b' : EReal) (x y : α) :
    Scalar.select (IntOp.ori (Ideal.cmp .one a a') (Ideal.cmp .one b b')) x y = if a ≠ a' ∨ b ≠ b' then x else y := by
  by_cases h1 : a = a' <;> by_cases h2 : b = b' <;> simp [h1, h2, Scalar.select, IntOp.ori, Ideal.cmp]

/-- Choosing by "the time counter is zero" is choosing by `t = 0`. -/
theorem select_time_zero (t : Fin 8192) (x y : α) :
    Scalar.select (IntOp.cmpi .eq (BitVec.ofNat 32 t.val) 0#32) x y = if t.val = 0 then x else y := by
  have ht := t.isLt
  by_cases h : t.val = 0
  · simp [h, Scalar.select, IntOp.cmpi]
  · have hne : BitVec.ofNat 32 t.val ≠ 0#32 := fun e => h (by
      have := congrArg BitVec.toNat e
      simp only [BitVec.toNat_ofNat, BitVec.toNat_zero] at this
      omega)
    have hb : (BitVec.ofNat 32 t.val == 0#32) = false := beq_eq_false_iff_ne.mpr hne
    simp [h, hb, Scalar.select, IntOp.cmpi]

/-- The time counter along the last axis reads the time. -/
theorem time_counter (r : Fin 32) (t : Fin 8192) :
    iota .tc S32x8192 32 [1] iota_S32x8192_d1_w32 (ix2 r t) = BitVec.ofNat 32 t.val :=
  iota_single_apply .tc S32x8192 32 1 iota_S32x8192_d1_w32 (ix2 r t)

/-- One place before on the time axis is the time before. -/
theorem before_eq_prev (t : Fin 8192) : LibAxisOps.before t = prev t := by
  apply Fin.ext
  have := t.isLt
  show (t.val + 8192 - 1 % 8192) % 8192 = (t.val + 8191) % 8192
  omega

/-- The body's weight at (r, t), from the targets' two blocks. -/
theorem weight_at (y0 y1 : Vec Ideal S32x8192 .f32) (r : Fin 32) (t : Fin 8192) :
    k0_pay7 (F := Ideal) y0 y1 (ix2 r t)
      = if t.val = 0 then wOne
        else if y0 (ix2 r t) ≠ y0 (ix2 r (prev t)) ∨ y1 (ix2 r t) ≠ y1 (ix2 r (prev t)) then wTwo else wOne := by
  unfold k0_pay7 k0_pay5 k0_pay6
  simp only [shapeCast_self]
  show Scalar.select (IntOp.cmpi .eq (iota .tc S32x8192 32 [1] iota_S32x8192_d1_w32 (ix2 r t)) 0#32) wOne
      (Scalar.select (IntOp.ori
          (Ideal.cmp .one (y0 (ix2 r t)) (dynamicRotate 1 1#32 none y0 rotates_S32x8192_d1 (ix2 r t)))
          (Ideal.cmp .one (y1 (ix2 r t)) (dynamicRotate 1 1#32 none y1 rotates_S32x8192_d1 (ix2 r t)))) wTwo wOne) = _
  rw [time_counter, LibAxisOps.rotate_one_last2, LibAxisOps.rotate_one_last2, select_time_zero, select_differs,
    before_eq_prev]

/-- Channel 0's partial sum at a point: the double sum, over the block's rows and times, of (x - y)² · weight. -/
theorem partial_sum0 (x y0 y1 : Vec Ideal S32x8192 .f32) :
    k0_pay8 (F := Ideal) x y0 y1 (ix2 0 0)
      = ∑ r : Fin 32, ∑ t : Fin 8192,
          (x (ix2 r t) - y0 (ix2 r t)) * (x (ix2 r t) - y0 (ix2 r t)) * k0_pay7 (F := Ideal) y0 y1 (ix2 r t) := by
  unfold k0_pay8
  refine (LibRowOps.cast_a_a1 (A := 1) _ shapeCasts_S1_S1x1 0 0).trans ?_
  refine (LibAxisOps.sum_first2 (A := 32) (B := 1) _ reduces_S32x1_S1 (.inl rfl) rfl 0).trans ?_
  refine Finset.sum_congr rfl fun r _ => ?_
  refine (LibRowOps.cast_a_a1 (A := 32) _ shapeCasts_S32_S32x1 r 0).trans ?_
  refine (LibRowOps.sum_last2 (A := 32) (B := 8192) _ reduces_S32x8192_S32 (.inl rfl) rfl r).trans ?_
  refine Finset.sum_congr rfl fun t _ => ?_
  unfold k0_pay5
  simp only [shapeCast_self]
  rfl

/-- Channel 1's partial sum at a point: the double sum, over the block's rows and times, of (x - y)² · weight. -/
theorem partial_sum1 (x y0 y1 : Vec Ideal S32x8192 .f32) :
    k0_pay9 (F := Ideal) x y0 y1 (ix2 0 0)
      = ∑ r : Fin 32, ∑ t : Fin 8192,
          (x (ix2 r t) - y1 (ix2 r t)) * (x (ix2 r t) - y1 (ix2 r t)) * k0_pay7 (F := Ideal) y0 y1 (ix2 r t) := by
  unfold k0_pay9
  refine (LibRowOps.cast_a_a1 (A := 1) _ shapeCasts_S1_S1x1 0 0).trans ?_
  refine (LibAxisOps.sum_first2 (A := 32) (B := 1) _ reduces_S32x1_S1 (.inl rfl) rfl 0).trans ?_
  refine Finset.sum_congr rfl fun r _ => ?_
  refine (LibRowOps.cast_a_a1 (A := 32) _ shapeCasts_S32_S32x1 r 0).trans ?_
  refine (LibRowOps.sum_last2 (A := 32) (B := 8192) _ reduces_S32x8192_S32 (.inl rfl) rfl r).trans ?_
  refine Finset.sum_congr rfl fun t _ => ?_
  unfold k0_pay6
  simp only [shapeCast_self]
  rfl

/-- One term of channel 0's partial sum, when the blocks are the n-th group of rows of the channel planes of P and
    A: the specification's term at the group's row. -/
theorem term_of_blocks0 (P A : Arr) (n : ℕ) (x y0 y1 : Vec Ideal S32x8192 .f32)
    (hx : ∀ r s, x (ix2 r s) = P (ix3 (row n r) s (0 : Fin 2)))
    (hy0 : ∀ r s, y0 (ix2 r s) = A (ix3 (row n r) s (0 : Fin 2)))
    (hy1 : ∀ r s, y1 (ix2 r s) = A (ix3 (row n r) s (1 : Fin 2))) (r : Fin 32) (t : Fin 8192) :
    (x (ix2 r t) - y0 (ix2 r t)) * (x (ix2 r t) - y0 (ix2 r t)) * k0_pay7 (F := Ideal) y0 y1 (ix2 r t)
      = term P A 0 (row n r) t := by
  rw [weight_at y0 y1 r t, hx, hy0, hy0, hy1, hy1]
  rfl

/-- So channel 0's partial sum is the n-th group's sum. -/
theorem group_of_blocks0 (P A : Arr) (n : ℕ) (x y0 y1 : Vec Ideal S32x8192 .f32)
    (hx : ∀ r s, x (ix2 r s) = P (ix3 (row n r) s (0 : Fin 2)))
    (hy0 : ∀ r s, y0 (ix2 r s) = A (ix3 (row n r) s (0 : Fin 2)))
    (hy1 : ∀ r s, y1 (ix2 r s) = A (ix3 (row n r) s (1 : Fin 2))) :
    k0_pay8 (F := Ideal) x y0 y1 (ix2 0 0) = groupSum P A 0 n :=
  (partial_sum0 x y0 y1).trans (Finset.sum_congr rfl fun r _ => Finset.sum_congr rfl fun t _ =>
    term_of_blocks0 P A n x y0 y1 hx hy0 hy1 r t)

/-- One term of channel 1's partial sum, when the blocks are the n-th group of rows of the channel planes of P and
    A: the specification's term at the group's row. -/
theorem term_of_blocks1 (P A : Arr) (n : ℕ) (x y0 y1 : Vec Ideal S32x8192 .f32)
    (hx : ∀ r s, x (ix2 r s) = P (ix3 (row n r) s (1 : Fin 2)))
    (hy0 : ∀ r s, y0 (ix2 r s) = A (ix3 (row n r) s (0 : Fin 2)))
    (hy1 : ∀ r s, y1 (ix2 r s) = A (ix3 (row n r) s (1 : Fin 2))) (r : Fin 32) (t : Fin 8192) :
    (x (ix2 r t) - y1 (ix2 r t)) * (x (ix2 r t) - y1 (ix2 r t)) * k0_pay7 (F := Ideal) y0 y1 (ix2 r t)
      = term P A 1 (row n r) t := by
  rw [weight_at y0 y1 r t, hx, hy0, hy0, hy1, hy1]
  rfl

/-- So channel 1's partial sum is the n-th group's sum. -/
theorem group_of_blocks1 (P A : Arr) (n : ℕ) (x y0 y1 : Vec Ideal S32x8192 .f32)
    (hx : ∀ r s, x (ix2 r s) = P (ix3 (row n r) s (1 : Fin 2)))
    (hy0 : ∀ r s, y0 (ix2 r s) = A (ix3 (row n r) s (0 : Fin 2)))
    (hy1 : ∀ r s, y1 (ix2 r s) = A (ix3 (row n r) s (1 : Fin 2))) :
    k0_pay9 (F := Ideal) x y0 y1 (ix2 0 0) = groupSum P A 1 n :=
  (partial_sum1 x y0 y1).trans (Finset.sum_congr rfl fun r _ => Finset.sum_congr rfl fun t _ =>
    term_of_blocks1 P A n x y0 y1 hx hy0 hy1 r t)

end Cert.KernelIdeal.PointSums

end
-- ==== Proof.RunningSums.lean ====
/-
  The running sums, in closed form over the extended reals.

  With P the predictions and A the targets as the program finds them, point n's partial sum for channel c is the sum of
  that channel's weighted squared errors over the n-th group of 32 rows: the point's blocks are those rows of the four
  channel planes, and the body's weight is the weight of the position. So the running sum after point n is the zero
  word plus the first n + 1 groups' sums, and after the last point the cell holds the zero word plus all 32 groups'
  sums, divided by the count: the loss.
-/
import proofs.«145044_j79809082295091_2_alg».proof.Proof.Gen.KernelIdeal.Frame
import Idealize.ShloMosaic.Lib.Pipeline.Value
import Idealize.ShloMosaic.Lib.Tactic
import proofs.«145044_j79809082295091_2_alg».proof.Proof.Accumulate
import proofs.«145044_j79809082295091_2_alg».proof.Proof.Blocks
import proofs.«145044_j79809082295091_2_alg».proof.Proof.PointSums
import proofs.«145044_j79809082295091_2_alg».proof.Proof.ChangepointLoss
import Idealize.ShloMosaic.Lib.ValueIdx

noncomputable section

open Idealize.ShloMosaic Idealize.ShloMosaic.TcCoe Idealize.SL.Sem

namespace Cert.KernelIdeal.RunningSums

open Cert.KernelIdeal Cert.KernelIdeal.Gen

open Idealize.ShloMosaic.ValueIdx Cert.ChangepointLoss Cert.KernelIdeal.Accumulate Cert.KernelIdeal.Blocks
open Cert.KernelIdeal.PointSums

variable (m : (ℓ : Loc nD τ sig) → Buf (Elt Ideal) ℓ)

/-- The predictions and the targets on core `c`, as the program is launched. -/
abbrev preds (c : Dev nD) : Arr := m ((c : Thread nD τ).loc main_arg0)
abbrev targs (c : Dev nD) : Arr := m ((c : Thread nD τ).loc main_arg1)

/-- Point n's partial sums are the n-th group's sums. -/
theorem partial0_eq (c : Dev nD) (n : ℕ) (h : n < cfg0.N) :
    partial0 m c n h (ix2 0 0) = groupSum (preds m c) (targs m c) 0 n := by
  unfold partial0
  exact group_of_blocks0 (preds m c) (targs m c) n (iblk m c 0 ⟨n, h⟩) (iblk m c 2 ⟨n, h⟩) (iblk m c 3 ⟨n, h⟩)
    (block_0 m c ⟨n, h⟩) (block_2 m c ⟨n, h⟩) (block_3 m c ⟨n, h⟩)

theorem partial1_eq (c : Dev nD) (n : ℕ) (h : n < cfg0.N) :
    partial1 m c n h (ix2 0 0) = groupSum (preds m c) (targs m c) 1 n := by
  unfold partial1
  exact group_of_blocks1 (preds m c) (targs m c) n (iblk m c 1 ⟨n, h⟩) (iblk m c 2 ⟨n, h⟩) (iblk m c 3 ⟨n, h⟩)
    (block_1 m c ⟨n, h⟩) (block_2 m c ⟨n, h⟩) (block_3 m c ⟨n, h⟩)

/-- The running sums after point n: the zero word plus the first n + 1 groups' sums. -/
theorem running_eq (c : Dev nD) : ∀ (n : ℕ) (h : n < cfg0.N),
    (running m c n h).1 (ix2 0 0) = wZero + ∑ i ∈ Finset.range (n + 1), groupSum (preds m c) (targs m c) 0 i
    ∧ (running m c n h).2 (ix2 0 0) = wZero + ∑ i ∈ Finset.range (n + 1), groupSum (preds m c) (targs m c) 1 i
  | 0, h => by
    refine ⟨?_, ?_⟩
    · show k0_pay1 (partial0 m c 0 h) (k0_pay10 (F := Ideal)) (ix2 0 0) = _
      unfold k0_pay1 k0_pay10
      simp only [shapeCast_self]
      show wZero + partial0 m c 0 h (ix2 0 0) = _
      rw [partial0_eq, Finset.sum_range_one]
    · show k0_pay2 (partial1 m c 0 h) (k0_pay11 (F := Ideal)) (ix2 0 0) = _
      unfold k0_pay2 k0_pay11
      simp only [shapeCast_self]
      show wZero + partial1 m c 0 h (ix2 0 0) = _
      rw [partial1_eq, Finset.sum_range_one]
  | n + 1, h => by
    obtain ⟨ih0, ih1⟩ := running_eq c n (Nat.lt_of_succ_lt h)
    refine ⟨?_, ?_⟩
    · show k0_pay1 (partial0 m c (n + 1) h) (running m c n (Nat.lt_of_succ_lt h)).1 (ix2 0 0) = _
      unfold k0_pay1
      simp only [shapeCast_self]
      show (running m c n (Nat.lt_of_succ_lt h)).1 (ix2 0 0) + partial0 m c (n + 1) h (ix2 0 0) = _
      rw [ih0, partial0_eq, Finset.sum_range_succ _ (n + 1), add_assoc]
    · show k0_pay2 (partial1 m c (n + 1) h) (running m c n (Nat.lt_of_succ_lt h)).2 (ix2 0 0) = _
      unfold k0_pay2
      simp only [shapeCast_self]
      show (running m c n (Nat.lt_of_succ_lt h)).2 (ix2 0 0) + partial1 m c (n + 1) h (ix2 0 0) = _
      rw [ih1, partial1_eq, Finset.sum_range_succ _ (n + 1), add_assoc]

/-- What the cells hold after the last point: the two losses. -/
theorem last_cells (c : Dev nD) (h : 31 < cfg0.N) :
    k0_pay3 (F := Ideal) (running m c 31 h).1 (ix2 0 0) = loss (preds m c) (targs m c) 0
    ∧ k0_pay4 (F := Ideal) (running m c 31 h).2 (ix2 0 0) = loss (preds m c) (targs m c) 1 := by
  obtain ⟨e0, e1⟩ := running_eq m c 31 h
  refine ⟨?_, ?_⟩
  · unfold k0_pay3
    simp only [shapeCast_self]
    show Ideal.div ((running m c 31 h).1 (ix2 0 0)) wCount = _
    rw [e0, loss_eq_groups]
  · unfold k0_pay4
    simp only [shapeCast_self]
    show Ideal.div ((running m c 31 h).2 (ix2 0 0)) wCount = _
    rw [e1, loss_eq_groups]

end Cert.KernelIdeal.RunningSums

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.ReferenceLoss.lean ====
/-
  The reference program computes the specification's two losses.

  The reference forms the changepoint mask on the 8191 positions t' = t - 1 (some channel of the targets differs
  between t' and t' + 1), chooses 2 or 1 by it, and puts a column of ones in front: at (b, t) that is the weight of
  (b, t). It multiplies the squared error of each channel by the weights, sums over every position from the zero
  word, and divides by the count. Index by index these are the specification's terms, so each result is the loss.
-/
import proofs.«145044_j79809082295091_2_alg».proof.Proof.RefReadPatched
import proofs.«145044_j79809082295091_2_alg».proof.Proof.ChangepointLoss
import proofs.«145044_j79809082295091_2_alg».proof.Proof.LibColumnBlocks
import proofs.«145044_j79809082295091_2_alg».proof.Proof.LibAxisOps
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.ReferenceIdeal.RefValue

open Cert.ReferenceIdeal Cert.ReferenceIdeal.Facts₀ Cert.ReferenceIdeal.ReadP Cert.ChangepointLoss

variable {α : Type}

/-- Choosing by the "or" of two "differs" tests (and a zero bit) is choosing by the disjunction, whichever way round
    each test compares. -/
theorem select_changed (a a' b b' : EReal) (x y : α) :
    Scalar.select (IntOp.ori (Ideal.cmp .une a' a) (IntOp.ori (Ideal.cmp .une b' b) 0#1)) x y
      = if a ≠ a' ∨ b ≠ b' then x else y := by
  by_cases h1 : a = a' <;> by_cases h2 : b = b' <;>
    simp [h1, h2, Ne.symm, eq_comm, Scalar.select, IntOp.ori, Ideal.cmp]

/-- The reference's weights at (b, t). -/
theorem weights_at (x1 : (⟨S1024x8192x2, .f32⟩ : BufTy).Contents (Elt Ideal)) (b : Fin 1024) (t : Fin 8192) :
    val_main_v7 (F := Ideal) x1 (ix2 b t) = weight x1 b t := by
  have htl := t.isLt
  unfold val_main_v7 weight
  by_cases ht : t.val = 0
  · rw [if_pos ht,
      LibColumnBlocks.cat2_left (A := 1024) (B1 := 1) (B2 := 8191) (B := 8192) _ _
        concatenates_S1024x1_S1024x8191_S1024x8192_d1 b t (by omega),
      val_main_v6_apply, val_main_cst_1_apply]
    rfl
  · have ht1 : 1 ≤ t.val := by omega
    have ht2 : t.val - 1 < 8191 := by omega
    rw [if_neg ht,
      LibColumnBlocks.cat2_right (A := 1024) (B1 := 1) (B2 := 8191) (B := 8192) _ _
        concatenates_S1024x1_S1024x8191_S1024x8192_d1 b t ht1 ht2,
      val_main_v5_apply, val_main_v4_apply, val_main_call0_v0_apply, val_main_call0_v1_apply, val_main_cst_apply,
      val_main_cst_0_apply]
    unfold val_main_v3
    rw [LibAxisOps.hostOr_last2 (A := 1024) (B := 8191) _ _ reducesTo_S1024x8191x2_S1024x8191_d2 (by decide) h_S_ b
        ⟨t.val - 1, ht2⟩,
      val_main_v2_apply, val_main_v2_apply, val_main_v0_apply, val_main_v1_apply, val_main_v0_apply, val_main_v1_apply,
      val_main_c_apply]
    have hp : (prev t).val = t.val - 1 := prev_val_of_pos t (by omega)
    have i00 : idx_main_v0 (ix3 b (⟨t.val - 1, ht2⟩ : Fin 8191) (0 : Fin 2)) = ix3 b (prev t) 0 :=
      funext fun a => Fin.ext (by match a with | ⟨0, _⟩ => rfl | ⟨1, _⟩ => exact hp.symm | ⟨2, _⟩ => rfl)
    have i01 : idx_main_v0 (ix3 b (⟨t.val - 1, ht2⟩ : Fin 8191) (1 : Fin 2)) = ix3 b (prev t) 1 :=
      funext fun a => Fin.ext (by match a with | ⟨0, _⟩ => rfl | ⟨1, _⟩ => exact hp.symm | ⟨2, _⟩ => rfl)
    have i10 : idx_main_v1 (ix3 b (⟨t.val - 1, ht2⟩ : Fin 8191) (0 : Fin 2)) = ix3 b t 0 :=
      funext fun a => Fin.ext (by match a with | ⟨0, _⟩ => rfl | ⟨1, _⟩ => (show 1 + (t.val - 1) = t.val; omega) | ⟨2, _⟩ => rfl)
    have i11 : idx_main_v1 (ix3 b (⟨t.val - 1, ht2⟩ : Fin 8191) (1 : Fin 2)) = ix3 b t 1 :=
      funext fun a => Fin.ext (by match a with | ⟨0, _⟩ => rfl | ⟨1, _⟩ => (show 1 + (t.val - 1) = t.val; omega) | ⟨2, _⟩ => rfl)
    rw [i00, i01, i10, i11]
    exact select_changed (x1 (ix3 b t 0)) (x1 (ix3 b (prev t) 0)) (x1 (ix3 b t 1)) (x1 (ix3 b (prev t) 1)) wTwo wOne

/-- The slice-and-reshape of channel 0, and of channel 1, read at (b, t). -/
theorem chan0_idx (b : Fin 1024) (t : Fin 8192) : idx_main_v9 (idx_main_v10 (ix2 b t)) = ix3 b t 0 :=
  funext fun a => Fin.ext (by
    have hb := b.isLt; have ht := t.isLt
    match a with
    | ⟨0, _⟩ => show (b.val * 8192 + t.val) / 8192 = b.val; omega
    | ⟨1, _⟩ => show (b.val * 8192 + t.val) / 1 % 8192 = t.val; omega
    | ⟨2, _⟩ => rfl)
theorem chan1_idx (b : Fin 1024) (t : Fin 8192) : idx_main_v15 (idx_main_v16 (ix2 b t)) = ix3 b t 1 :=
  funext fun a => Fin.ext (by
    have hb := b.isLt; have ht := t.isLt
    match a with
    | ⟨0, _⟩ => show (b.val * 8192 + t.val) / 8192 = b.val; omega
    | ⟨1, _⟩ => show (b.val * 8192 + t.val) / 1 % 8192 = t.val; omega
    | ⟨2, _⟩ => rfl)

/-- The first result is channel 0's loss. -/
theorem loss0 (x0 x1 : (⟨S1024x8192x2, .f32⟩ : BufTy).Contents (Elt Ideal)) :
    val_main_v14 (F := Ideal) x0 x1 = fun _ => loss x0 x1 0 := by
  funext i
  rw [val_main_v14_apply, val_main_v13_apply, val_main_cst_3_apply, val_main_cst_2_apply]
  refine congrArg (fun s => Ideal.div (wZero + s) wCount) (Finset.sum_congr rfl fun j _ => ?_)
  obtain ⟨b, t, rfl⟩ : ∃ (b : Fin 1024) (t : Fin 8192), j = ix2 b t := ⟨j 0, j 1, eq_ix2 j⟩
  rw [val_main_v12_apply, val_main_v11_apply, val_main_v10_apply, val_main_v9_apply, val_main_v8_apply, weights_at,
    chan0_idx]
  rfl

/-- The second result is channel 1's loss. -/
theorem loss1 (x0 x1 : (⟨S1024x8192x2, .f32⟩ : BufTy).Contents (Elt Ideal)) :
    val_main_v20 (F := Ideal) x0 x1 = fun _ => loss x0 x1 1 := by
  funext i
  rw [val_main_v20_apply, val_main_v19_apply, val_main_cst_5_apply, val_main_cst_4_apply]
  refine congrArg (fun s => Ideal.div (wZero + s) wCount) (Finset.sum_congr rfl fun j _ => ?_)
  obtain ⟨b, t, rfl⟩ : ∃ (b : Fin 1024) (t : Fin 8192), j = ix2 b t := ⟨j 0, j 1, eq_ix2 j⟩
  rw [val_main_v18_apply, val_main_v17_apply, val_main_v16_apply, val_main_v15_apply, val_main_v8_apply, weights_at,
    chan1_idx]
  rfl

end Cert.ReferenceIdeal.RefValue

end
-- ==== Proof.lean ====
/-
  The certificate of the changepoint-weighted mean squared error kernel against its reference.

  Both programs take predictions P and targets A of shape [1024, 8192, 2] and return two scalars, one per channel: the
  sum over all (row, time) of (P - A)² · weight, divided by 2²³, where the weight of a position is 1 at time 0 and
  otherwise 2 if some channel of A changed since the time before, else 1 (Proof/ChangepointLoss.lean states this as
  one function, `loss`).

  The kernel walks the rows in 32 groups of 32, keeps one running sum per channel in a single cell, starts it from zero
  at the first group, adds each group's partial sum, and divides by the count after the last group; the reference
  builds the weights as one array, multiplies, sums everything at once and divides. Over the extended reals both are
  `loss`: a finite sum in a commutative monoid may be taken group by group (no finiteness of the inputs is needed, so
  the precondition is never opened).

  The three programs' runs terminate without a fault and leave their arguments as they were; the idealized kernel is
  the kernel's own text read over the extended reals (no rewrite was applied, so that conjunct is trivial); and the two
  idealized programs' results are equal, position by position.
-/
import proofs.«145044_j79809082295091_2_alg».proof.Defs
import proofs.«145044_j79809082295091_2_alg».proof.Proof.Gen.Kernel
import proofs.«145044_j79809082295091_2_alg».proof.Proof.Gen.Kernel.Frame
import proofs.«145044_j79809082295091_2_alg».proof.Proof.Gen.KernelIdeal
import proofs.«145044_j79809082295091_2_alg».proof.Proof.Gen.KernelIdeal.Frame
import proofs.«145044_j79809082295091_2_alg».proof.Proof.Gen.ReferenceIdeal
import proofs.«145044_j79809082295091_2_alg».proof.Proof.Gen.Pre_finite_inputs
import proofs.«145044_j79809082295091_2_alg».proof.Proof.Results
import proofs.«145044_j79809082295091_2_alg».proof.Proof.RunningSums
import proofs.«145044_j79809082295091_2_alg».proof.Proof.RefRunPatched
import proofs.«145044_j79809082295091_2_alg».proof.Proof.RefReadPatched
import proofs.«145044_j79809082295091_2_alg».proof.Proof.ReferenceLoss
import Idealize.ShloMosaic.Adequacy
import Idealize.ShloMosaic.Init

noncomputable section

namespace Cert.Proof

open Idealize.ShloMosaic Idealize.ShloMosaic.TcCoe Idealize.SL.Sem Idealize.ShloMosaic.ValueIdx
open Cert.ChangepointLoss

theorem frame_kernel : Cert.frame_Kernel := fun m ρ _ => Cert.Kernel.Gen.frame m ρ

theorem frame_kernelIdeal : Cert.frame_KernelIdeal := fun m ρ _ => Cert.KernelIdeal.Gen.frame m ρ

/-- The reference's run, with the results dropped. -/
theorem frame_referenceIdeal : Cert.frame_ReferenceIdeal := fun m ρ _ =>
  (θ_run Cert.ReferenceIdeal.defs _ _).mono (fun _ h c => (h c).2.2)
    (Cert.ReferenceIdeal.ValueP.run (F := Ideal) m ρ)

/-- The idealization rewrote nothing. -/
theorem preserves : Cert.preserves_Kernel_KernelIdeal := trivial

/-- Over the extended reals both programs return, per channel, the loss of the arguments. -/
theorem algebraic : Cert.algebraic_KernelIdeal_ReferenceIdeal := by
  intro m ρ m' ρ' _ hagree
  refine ⟨fun c _ => loss (Cert.KernelIdeal.RunningSums.preds m c) (Cert.KernelIdeal.RunningSums.targs m c) 0,
    fun c _ => loss (Cert.KernelIdeal.RunningSums.preds m c) (Cert.KernelIdeal.RunningSums.targs m c) 1, ?_, ?_⟩
  · refine (θ_run Cert.KernelIdeal.defs _ _).mono (fun _ h c => ?_) (Cert.KernelIdeal.Results.run (F := Ideal) m ρ)
    obtain ⟨h9, h10, ha0, ha1⟩ := h c
    obtain ⟨e0, e1⟩ := Cert.KernelIdeal.RunningSums.last_cells m c Cert.KernelIdeal.Results.lastPt.isLt
    exact ⟨h9.trans (funext fun _ => e0), h10.trans (funext fun _ => e1), ha0, ha1⟩
  · refine (θ_run Cert.ReferenceIdeal.defs _ _).mono (fun _ h c => ?_)
      (Cert.ReferenceIdeal.ValueP.run (F := Ideal) m' ρ')
    obtain ⟨h14, h20, ha0, ha1⟩ := h c
    refine ⟨h14.trans ?_, h20.trans ?_, ha0, ha1⟩
    · rw [Cert.ReferenceIdeal.ReadP.val_main_v14_eq, Cert.ReferenceIdeal.RefValue.loss0, (hagree c).1, (hagree c).2]
      rfl
    · rw [Cert.ReferenceIdeal.ReadP.val_main_v20_eq, Cert.ReferenceIdeal.RefValue.loss1, (hagree c).1, (hagree c).2]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
